-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2x1600000 : Shape := ⟨2, ![2, 1600000]⟩
abbrev S48x64 : Shape := ⟨2, ![48, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S48x64 : S_.BroadcastsInDim S48x64 (![] : Fin 0 → Fin S48x64.rank)
  reducesTo_S48x64_S_d0_1 : S48x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_arg7 : FVec F S64x32 .f32) (main_v13 : IVec S_ 1) (main_v16 : IVec S48x64 1) : IVec S_ 1 :=
  let main_c_5 : IVec S_ 1 := constantI S_ 1 1#1
  let main_v17 : IVec S_ 1 := (fun x v => Host.reduce IntOp.andi x v reducesTo_S48x64_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  main_v33

def fn {F : FTy → Type} [FloatOps F] (main_arg0 : FVec F S100000x48 .f32) (main_arg1 : IVec S2x1600000 32) (main_arg2 : FVec F S48x64 .f32) (main_arg3 : FVec F S64 .f32) (main_arg4 : FVec F S48x64 .f32) (main_arg5 : FVec F S64x32 .f32) (main_arg6 : FVec F S32 .f32) (main_arg7 : FVec F S64x32 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S48x64 .f32 := Host.absf main_arg2
  let main_cst_0 : FVec F S_ .f32 := constant S_ .f32 0x7F800000#32
  let main_v5 : FVec F S48x64 .f32 := broadcastInDim S48x64 ![] bcast_S_S48x64 main_cst_0
  let main_v6 : IVec S48x64 1 := cmpf .olt main_v4 main_v5
  let main_c_1 : IVec S_ 1 := constantI S_ 1 1#1
  let main_v7 : IVec S_ 1 := (fun x v => Host.reduce IntOp.andi x v reducesTo_S48x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S48x64 .f32 := Host.absf main_arg4
  let main_cst_4 : FVec F S_ .f32 := constant S_ .f32 0x7F800000#32
  let main_v15 : FVec F S48x64 .f32 := broadcastInDim S48x64 ![] bcast_S_S48x64 main_cst_4
  let main_v16 : IVec S48x64 1 := cmpf .olt main_v14 main_v15
  fn_part1 (F := F) main_arg5 main_arg6 main_arg7 main_v13 main_v16
-- ==== Kernel.lean ====
abbrev S100000x48 : Shape := ⟨2, ![100000, 48]⟩
abbrev S2x1600000 : Shape := ⟨2, ![2, 1600000]⟩
abbrev S48x64 : Shape := ⟨2, ![48, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x48 : Shape := ⟨2, ![1600000, 48]⟩
abbrev S1x64 : Shape := ⟨2, ![1, 64]⟩
abbrev S100000x64 : Shape := ⟨2, ![100000, 64]⟩
abbrev S5000x48 : Shape := ⟨2, ![5000, 48]⟩
abbrev S5000x64 : Shape := ⟨2, ![5000, 64]⟩
abbrev S1600000x64 : Shape := ⟨2, ![1600000, 64]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 42
  | .vmem => 18
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S48x64, .f32⟩
  | .hbm, ⟨3, _⟩ => ⟨S64, .f32⟩
  | .hbm, ⟨4, _⟩ => ⟨S48x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x48, .f32⟩
  | .hbm, ⟨21, _⟩ => ⟨S_, .f32⟩
  | .hbm, ⟨22, _⟩ => ⟨S100000x48, .f32⟩
  | .hbm, ⟨23, _⟩ => ⟨S1600000x1, .i32⟩
  | .hbm, ⟨24, _⟩ => ⟨S100000x48, .f32⟩
  | .hbm, ⟨25, _⟩ => ⟨S1x64, .f32⟩
  | .hbm, ⟨26, _⟩ => ⟨S100000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S1x32, .f32⟩
  | .hbm, ⟨41, _⟩ => ⟨S100000x32, .f32⟩
  | .local _ .vmem, ⟨0, _⟩ => ⟨S5000x48, .f32⟩
  | .local _ .vmem, ⟨1, _⟩ => ⟨S5000x48, .f32⟩
  | .local _ .vmem, ⟨2, _⟩ => ⟨S5000x48, .f32⟩
  | .local _ .vmem, ⟨3, _⟩ => ⟨S5000x48, .f32⟩
  | .local _ .vmem, ⟨4, _⟩ => ⟨S48x64, .f32⟩
  | .local _ .vmem, ⟨5, _⟩ => ⟨S1x64, .f32⟩
  | .local _ .vmem, ⟨6, _⟩ => ⟨S48x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x32, .f32⟩
  | .local _ .vmem, ⟨14, _⟩ => ⟨S1x32, .f32⟩
  | .local _ .vmem, ⟨15, _⟩ => ⟨S64x32, .f32⟩
  | .local _ .vmem, ⟨16, _⟩ => ⟨S5000x32, .f32⟩
  | .local _ .vmem, ⟨17, _⟩ => ⟨S5000x32, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x48 : S_.BroadcastsInDim S100000x48 (![] : Fin 0 → Fin S100000x48.rank)
  shapeCasts_S64_S1x64 : S64.ShapeCasts S1x64
  inb_S5000x48_S5000x48_0_0 : ∀ a, (![0, 0] : Fin 2 → Nat) a + S5000x48.size a ≤ S5000x48.size a
  h_S5000x48 : 0 < S5000x48.numel
  shapeCasts_S5000x48_S5000x48 : S5000x48.ShapeCasts S5000x48
  bitsLt_bf16_f32 : FTy.bits .bf16 < FTy.bits .f32
  inb_S48x64_S48x64_0_0 : ∀ a, (![0, 0] : Fin 2 → Nat) a + S48x64.size a ≤ S48x64.size a
  h_S48x64 : 0 < S48x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S32_S1x32 : S32.ShapeCasts S1x32
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S5000x48_S48x64_S5000x64_1_0_0_1_n_n_wf : DotDims.WF S5000x48 S48x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x48.size a ≤ S100000x48.size a
  hwx0_0 : ∀ i : grid0.Coords, EltTy.bits .f32 = 32 ∨ (Rect.block (s := S100000x48) S5000x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x48.size a ≤ S100000x48.size a
  hwx0_1 : ∀ i : grid0.Coords, EltTy.bits .f32 = 32 ∨ (Rect.block (s := S100000x48) S5000x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x64.size a ≤ S48x64.size a
  hwx0_2 : ∀ i : grid0.Coords, EltTy.bits .f32 = 32 ∨ (Rect.block (s := S48x64) S48x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S48x64.size a ≤ S48x64.size a
  hwx0_4 : ∀ i : grid0.Coords, EltTy.bits .f32 = 32 ∨ (Rect.block (s := S48x64) S48x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S5000x48_S48x64_S5000x64_1_0_0_1_n_n : DotDims S5000x48 S48x64 S5000x64 where
  lhsContracting := [1]
  rhsContracting := [0]
  lhsNonContracting := [0]
  rhsNonContracting := [1]
  lhsBatch := []
  rhsBatch := []
  wf := dot_S5000x48_S48x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v13) S5000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S48x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S48x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x48 : Shape := ⟨2, ![100000, 48]⟩
abbrev S2x1600000 : Shape := ⟨2, ![2, 1600000]⟩
abbrev S48x64 : Shape := ⟨2, ![48, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x48 : Shape := ⟨2, ![1600000, 48]⟩
abbrev S100000x64 : Shape := ⟨2, ![100000, 64]⟩
abbrev S1x64 : Shape := ⟨2, ![1, 64]⟩
abbrev S1600000x64 : Shape := ⟨2, ![1600000, 64]⟩
abbrev S100000x32 : Shape := ⟨2, ![100000, 32]⟩
abbrev S1x32 : Shape := ⟨2, ![1, 32]⟩

abbrev nBuf : Space → Nat
  | .hbm => 53
  | .vmem => 0
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S48x64, .f32⟩
  | .hbm, ⟨3, _⟩ => ⟨S64, .f32⟩
  | .hbm, ⟨4, _⟩ => ⟨S48x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x48, .f32⟩
  | .hbm, ⟨21, _⟩ => ⟨S_, .f32⟩
  | .hbm, ⟨22, _⟩ => ⟨S100000x48, .f32⟩
  | .hbm, ⟨23, _⟩ => ⟨S1600000x1, .i32⟩
  | .hbm, ⟨24, _⟩ => ⟨S100000x48, .f32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S_, .f32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S100000x32, .f32⟩
  | .hbm, ⟨48, _⟩ => ⟨S1x32, .f32⟩
  | .hbm, ⟨49, _⟩ => ⟨S100000x32, .f32⟩
  | .hbm, ⟨50, _⟩ => ⟨S100000x32, .f32⟩
  | .hbm, ⟨51, _⟩ => ⟨S100000x32, .f32⟩
  | .hbm, ⟨52, _⟩ => ⟨S100000x32, .f32⟩
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x48 : S_.BroadcastsInDim S100000x48 (![] : Fin 0 → Fin S100000x48.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S100000x48_S48x64_S100000x64_1_0_0_1_n_n_wf : DotDims.WF S100000x48 S48x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S100000x48_S48x64_S100000x64_1_0_0_1_n_n : DotDims S100000x48 S48x64 S100000x64 where
  lhsContracting := [1]
  rhsContracting := [0]
  lhsNonContracting := [0]
  rhsNonContracting := [1]
  lhsBatch := []
  rhsBatch := []
  wf := dot_S100000x48_S48x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The tiled program's run with its result array named.

  The program is four stretches in order: host operations (the first neighbour sums), the first tiled combine,
  host operations (the second neighbour sums), the second tiled combine. Every weakly fair execution terminates, and the
  final memory holds, at every buffer that outlives the pipelines, the contents obtained by folding the four stretches
  over the launch memory. Read at the result buffer that is what the second pipeline's write-backs leave; read at an
  argument it is the argument as launched.
-/
import proofs.«165552_j60043642798829_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the fold's contents there, the arguments as launched. -/
theorem run_fold : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Hand

end
-- ==== Proof.Payload.lean ====
/-
  What one grid point of each combine kernel computes, entry by entry, on the extended reals.

  A block holds 5000 consecutive node rows. At row `p` of the block and output feature `q` the body's value is
      (sum_k agg[p,k] * wrel[k,q] + sum_k x[p,k] * wroot[k,q]) + b[0,q],
  and the first kernel then takes the maximum with 0. The narrowing of the operands to bf16 before the two
  matrix products is the identity on exact values, and a matrix product into a zero accumulator is the plain
  sum over the contracted feature axis.
-/
import proofs.«165552_j60043642798829_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The two matrix products as sums over the contracted axis -/

/-- Rows of a 5000 x 48 block against a 48 x 64 weight: entry (p, q) is the sum over the 48 input features. -/
theorem matmul_48_64 (l : FVec Ideal S5000x48 .bf16) (r : FVec Ideal S48x64 .bf16) (p : Fin 5000) (q : Fin 64) :
    matmul dot_S5000x48_S48x64_S5000x64_1_0_0_1_n_n none l r (constant S5000x64 .f32 0x00000000#32) (ix2 p q)
      = ∑ k : Fin 48, l (ix2 p k) * r (ix2 k q) := by
  simp only [matmul]
  rw [Ideal.matmul_constant_zero_apply, ← Equiv.sum_comp (contrEquiv1 dot_S5000x48_S48x64_S5000x64_1_0_0_1_n_n 48 rfl rfl).symm]
  refine Finset.sum_congr rfl fun k _ => ?_
  have hk := contrEquiv1_symm_val dot_S5000x48_S48x64_S5000x64_1_0_0_1_n_n 48 rfl rfl k
  have el : dot_S5000x48_S48x64_S5000x64_1_0_0_1_n_n.lhsIdx (ix2 p q) ((contrEquiv1 dot_S5000x48_S48x64_S5000x64_1_0_0_1_n_n 48 rfl rfl).symm k) = ix2 p k :=
    funext fun a => Fin.ext (by
      match a with
      | ⟨0, _⟩ =>
        show (dot_S5000x48_S48x64_S5000x64_1_0_0_1_n_n.lhsIdx (ix2 p q) _ 0).val = p.val
        unfold DotDims.lhsIdx
        rw [dif_neg (show ¬(0 : Fin S5000x48.rank) ∈ dot_S5000x48_S48x64_S5000x64_1_0_0_1_n_n.lhsBatch by decide), dif_pos (show (0 : Fin S5000x48.rank) ∈ dot_S5000x48_S48x64_S5000x64_1_0_0_1_n_n.lhsNonContracting by decide)]
        rfl
      | ⟨1, _⟩ => exact (dot_S5000x48_S48x64_S5000x64_1_0_0_1_n_n.lhsIdx_val_of_single rfl _ _).trans hk)
  have er : dot_S5000x48_S48x64_S5000x64_1_0_0_1_n_n.rhsIdx (ix2 p q) ((contrEquiv1 dot_S5000x48_S48x64_S5000x64_1_0_0_1_n_n 48 rfl rfl).symm k) = ix2 k q :=
    funext fun a => Fin.ext (by
      match a with
      | ⟨0, _⟩ => exact (dot_S5000x48_S48x64_S5000x64_1_0_0_1_n_n.rhsIdx_val_of_single rfl _ _).trans hk
      | ⟨1, _⟩ =>
        show (dot_S5000x48_S48x64_S5000x64_1_0_0_1_n_n.rhsIdx (ix2 p q) _ 1).val = q.val
        unfold DotDims.rhsIdx
        rw [dif_neg (show ¬(1 : Fin S48x64.rank) ∈ dot_S5000x48_S48x64_S5000x64_1_0_0_1_n_n.rhsBatch by decide), dif_pos (show (1 : Fin S48x64.rank) ∈ dot_S5000x48_S48x64_S5000x64_1_0_0_1_n_n.rhsNonContracting by decide)]
        rfl)
  rw [el, er]

/-- Rows of a 5000 x 64 block against a 64 x 32 weight: entry (p, q) is the sum over the 64 hidden features. -/
theorem matmul_64_32 (l : FVec Ideal S5000x64 .bf16) (r : FVec Ideal S64x32 .bf16) (p : Fin 5000) (q : Fin 32) :
    matmul dot_S5000x64_S64x32_S5000x32_1_0_0_1_n_n none l r (constant S5000x32 .f32 0x00000000#32) (ix2 p q)
      = ∑ k : Fin 64, l (ix2 p k) * r (ix2 k q) := by
  simp only [matmul]
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k :=
    funext fun a => Fin.ext (by
      match a with
      | ⟨0, _⟩ =>
        show (dot_S5000x64_S64x32_S5000x32_1_0_0_1_n_n.lhsIdx (ix2 p q) _ 0).val = p.val
        unfold DotDims.lhsIdx
        rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
        rfl
      | ⟨1, _⟩ => exact (dot_S5000x64_S64x32_S5000x32_1_0_0_1_n_n.lhsIdx_val_of_single rfl _ _).trans hk)
  have er : dot_S5000x64_S64x32_S5000x32_1_0_0_1_n_n.rhsIdx (ix2 p q) ((contrEquiv1 dot_S5000x64_S64x32_S5000x32_1_0_0_1_n_n 64 rfl rfl).symm k) = ix2 k q :=
    funext fun a => Fin.ext (by
      match a with
      | ⟨0, _⟩ => exact (dot_S5000x64_S64x32_S5000x32_1_0_0_1_n_n.rhsIdx_val_of_single rfl _ _).trans hk
      | ⟨1, _⟩ =>
        show (dot_S5000x64_S64x32_S5000x32_1_0_0_1_n_n.rhsIdx (ix2 p q) _ 1).val = q.val
        unfold DotDims.rhsIdx
        rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
        rfl)
  rw [el, er]

/-! ## The bias row spread over the block's rows -/

/-- The 1 x 64 bias row broadcast to 5000 rows reads, at (p, q), the bias of feature q. -/
theorem bias_64 (b : FVec Ideal S1x64 .f32) (p : Fin 5000) (q : Fin 64) :
    broadcastTo S5000x64 (shapeCast S1x64 b shapeCasts_S1x64_S1x64) broadcasts_S1x64_S5000x64 (ix2 p q) = b (ix2 0 q) := by
  rw [shapeCast_self]
  refine broadcastTo_apply b broadcasts_S1x64_S5000x64 (ix2 p q) (ix2 0 q) fun a => ?_
  match a with
  | ⟨0, _⟩ => show (0 : Nat) = if (1 : Nat) = 1 then 0 else _; rw [if_pos rfl]
  | ⟨1, _⟩ => show q.val = if (64 : Nat) = 1 then 0 else q.val; rw [if_neg (by decide)]

/-- The 1 x 32 bias row broadcast to 5000 rows reads, at (p, q), the bias of feature q. -/
theorem bias_32 (b : FVec Ideal S1x32 .f32) (p : Fin 5000) (q : Fin 32) :
    broadcastTo S5000x32 (shapeCast S1x32 b shapeCasts_S1x32_S1x32) broadcasts_S1x32_S5000x32 (ix2 p q) = b (ix2 0 q) := by
  rw [shapeCast_self]
  refine broadcastTo_apply b broadcasts_S1x32_S5000x32 (ix2 p q) (ix2 0 q) fun a => ?_
  match a with
  | ⟨0, _⟩ => show (0 : Nat) = if (1 : Nat) = 1 then 0 else _; rw [if_pos rfl]
  | ⟨1, _⟩ => show q.val = if (32 : Nat) = 1 then 0 else q.val; rw [if_neg (by decide)]

/-! ## The bodies' values at a row and a feature -/

/-- First kernel: relu of (aggregated rows times wrel plus own rows times wroot, plus the bias). -/
theorem pay0_apply (agg x : FVec Ideal S5000x48 .f32) (wrel wroot : FVec Ideal S48x64 .f32) (b : FVec Ideal S1x64 .f32)
    (p : Fin 5000) (q : Fin 64) :
    k0_pay1 agg x wrel wroot b (ix2 p q)
      = max ((∑ k : Fin 48, agg (ix2 p k) * wrel (ix2 k q) + ∑ k : Fin 48, x (ix2 p k) * wroot (ix2 k q)) + b (ix2 0 q)) 0 := by
  unfold k0_pay1
  show max ((matmul dot_S5000x48_S48x64_S5000x64_1_0_0_1_n_n none _ _ (constant S5000x64 .f32 0x00000000#32) (ix2 p q)
      + matmul dot_S5000x48_S48x64_S5000x64_1_0_0_1_n_n none _ _ (constant S5000x64 .f32 0x00000000#32) (ix2 p q))
      + broadcastTo S5000x64 (shapeCast S1x64 b shapeCasts_S1x64_S1x64) broadcasts_S1x64_S5000x64 (ix2 p q))
      (Ideal.ofBits .f32 0x00000000#32) = _
  rw [matmul_48_64, matmul_48_64, bias_64, Ideal.ofBits_zero_f32, shapeCast_self]
  rfl

/-- Second kernel: aggregated hidden rows times wrel plus own hidden rows times wroot, plus the bias. -/
theorem pay1_apply (agg h : FVec Ideal S5000x64 .f32) (wrel wroot : FVec Ideal S64x32 .f32) (b : FVec Ideal S1x32 .f32)
    (p : Fin 5000) (q : Fin 32) :
    k1_pay1 agg h wrel wroot b (ix2 p q)
      = (∑ k : Fin 64, agg (ix2 p k) * wrel (ix2 k q) + ∑ k : Fin 64, h (ix2 p k) * wroot (ix2 k q)) + b (ix2 0 q) := by
  unfold k1_pay1
  show (matmul dot_S5000x64_S64x32_S5000x32_1_0_0_1_n_n none _ _ (constant S5000x32 .f32 0x00000000#32) (ix2 p q)
      + matmul dot_S5000x64_S64x32_S5000x32_1_0_0_1_n_n none _ _ (constant S5000x32 .f32 0x00000000#32) (ix2 p q))
      + broadcastTo S5000x32 (shapeCast S1x32 b shapeCasts_S1x32_S1x32) broadcasts_S1x32_S5000x32 (ix2 p q) = _
  rw [matmul_64_32, matmul_64_32, bias_32, shapeCast_self, shapeCast_self]
  rfl

end Cert.KernelIdeal.Hand

end
-- ==== Proof.Combine.lean ====
/-
  The two GraphConv layers as whole-array functions on the extended reals, entry by entry.

  For a node `r` and an output feature `j`, with `agg` the neighbour sums of the layer's input `x`:
      hidden  = max ((sum_k agg[r,k] * wrel[k,j] + sum_k x[r,k] * wroot[k,j]) + b[0,j], 0)      (48 -> 64 features)
      output  =      (sum_k agg[r,k] * wrel[k,j] + sum_k x[r,k] * wroot[k,j]) + b[0,j]           (64 -> 32 features)
  The grouping is the one of the tiled kernels: the two products are added first and the bias last.
-/
import Idealize.ShloMosaic.PureOps.Ideal
import Idealize.ShloMosaic.Lib.ValueIdx

noncomputable section

namespace Cert.GraphConv

open Idealize.ShloMosaic Idealize.ShloMosaic.ValueIdx

/-- An `n` by `d` array of extended reals. -/
abbrev Mat (n d : Nat) : Type := (⟨2, ![n, d]⟩ : Shape).Idx → Ideal .f32

/-- The 64 biases as the one-row array the combine adds to every node's row. -/
def biasRow64 (b : (⟨1, ![64]⟩ : Shape).Idx → Ideal .f32) : Mat 1 64 := fun i => b (ix1 (i 1))

/-- The 32 biases as the one-row array the combine adds to every node's row. -/
def biasRow32 (b : (⟨1, ![32]⟩ : Shape).Idx → Ideal .f32) : Mat 1 32 := fun i => b (ix1 (i 1))

/-- The hidden features: relu of the combine of neighbour sums and own features, 48 inputs to 64 outputs. -/
def hidden (agg x : Mat 100000 48) (wrel wroot : Mat 48 64) (b : Mat 1 64) : Mat 100000 64 :=
  fun i => max ((∑ k : Fin 48, agg (ix2 (i 0) k) * wrel (ix2 k (i 1)) + ∑ k : Fin 48, x (ix2 (i 0) k) * wroot (ix2 k (i 1)))
    + b (ix2 0 (i 1))) 0

/-- The output features: the combine of neighbour sums and own hidden features, 64 inputs to 32 outputs. -/
def output (agg h : Mat 100000 64) (wrel wroot : Mat 64 32) (b : Mat 1 32) : Mat 100000 32 :=
  fun i => (∑ k : Fin 64, agg (ix2 (i 0) k) * wrel (ix2 k (i 1)) + ∑ k : Fin 64, h (ix2 (i 0) k) * wroot (ix2 k (i 1)))
    + b (ix2 0 (i 1))

/-- The hidden features read at an index whose coordinates are the node `r` and the feature `j`. -/
theorem hidden_at (agg x : Mat 100000 48) (wrel wroot : Mat 48 64) (b : Mat 1 64) (i : (⟨2, ![100000, 64]⟩ : Shape).Idx)
    (r : Fin 100000) (j : Fin 64) (h0 : (i 0).val = r.val) (h1 : (i 1).val = j.val) :
    hidden agg x wrel wroot b i
      = max ((∑ k : Fin 48, agg (ix2 r k) * wrel (ix2 k j) + ∑ k : Fin 48, x (ix2 r k) * wroot (ix2 k j)) + b (ix2 0 j)) 0 := by
  obtain rfl : i = ix2 r j := funext fun a => Fin.ext (by match a with | ⟨0, _⟩ => exact h0 | ⟨1, _⟩ => exact h1)
  rfl

/-- The output features read at an index whose coordinates are the node `r` and the feature `j`. -/
theorem output_at (agg h : Mat 100000 64) (wrel wroot : Mat 64 32) (b : Mat 1 32) (i : (⟨2, ![100000, 32]⟩ : Shape).Idx)
    (r : Fin 100000) (j : Fin 32) (h0 : (i 0).val = r.val) (h1 : (i 1).val = j.val) :
    output agg h wrel wroot b i
      = (∑ k : Fin 64, agg (ix2 r k) * wrel (ix2 k j) + ∑ k : Fin 64, h (ix2 r k) * wroot (ix2 k j)) + b (ix2 0 j) := by
  obtain rfl : i = ix2 r j := funext fun a => Fin.ext (by match a with | ⟨0, _⟩ => exact h0 | ⟨1, _⟩ => exact h1)
  rfl

end Cert.GraphConv

end
-- ==== Proof.Region0.lean ====
/-
  Pipeline 0 (48 -> 64 features), from blocks to the whole array.

  Grid point `t` of 20 stages rows 5000 t .. 5000 t + 4999 of the neighbour sums and of the layer's input, the two weight
  matrices and the bias row whole, and writes back rows 5000 t .. 5000 t + 4999 of the result. Each written block is
  the block of ONE function of the arrays as the pipeline finds them (`Cert.GraphConv.hidden`), and the 20 blocks cover all
  100000 rows, so the result array ends holding that function.
-/
import proofs.«165552_j60043642798829_1_alg».proof.Proof.Gen.KernelIdeal.Frame
import proofs.«165552_j60043642798829_1_alg».proof.Proof.Payload
import proofs.«165552_j60043642798829_1_alg».proof.Proof.Combine
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.GraphConv

variable (V : (c : Dev nD) → (b : Ref sig .tc) → Buf (Elt Ideal) ((c : Thread nD τ).loc b))

theorem zero_offsets0 : (![0, 0] : Fin 2 → Nat) = fun _ => 0 := funext fun a => by fin_cases a <;> rfl

/-- What the body leaves in the output's staging buffer, at row `p` of the block and feature `q`. -/
theorem out0_apply (x0 x1 : Vec Ideal S5000x48 .f32) (x2 : Vec Ideal S48x64 .f32) (x3 : Vec Ideal S1x64 .f32) (x4 : Vec Ideal S48x64 .f32)
    (p : Fin 5000) (q : Fin 64) :
    out0_5 x0 x1 x2 x3 x4 (ix2 p q) = max ((∑ k : Fin 48, x0 (ix2 p k) * x2 (ix2 k q) + ∑ k : Fin 48, x1 (ix2 p k) * x4 (ix2 k q)) + x3 (ix2 0 q)) 0 := by
  unfold out0_5
  rw [View.canon_unit_zero zero_offsets0]
  simp only [View.ld_unit_zero (S := S5000x48) zero_offsets0, View.ld_unit_zero (S := S48x64) zero_offsets0, View.ld_unit_zero (S := S1x64) zero_offsets0]
  exact pay0_apply x0 x1 x2 x4 x3 p q

/-- The printed index maps over the 20 grid points: the two row-tiled inputs and the output sit at block row `t`,
    the weights and the bias at their one block. -/
theorem block_index0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer's function of the arrays as the pipeline finds them. -/
theorem flushed0_eq (c : Dev nD) (t : Fin cfg0.N) :
    (dat0 V c).flushed 5 t = ((cfg0.win 5).blk t).view.read (Elt Ideal)
      (hidden (V c main_v13) (V c main_arg0) (V c main_arg2) (V c main_arg4) (V c main_v14)) := by
  show (cfg0.win 5).cut (grid0.coords t) ((dat0 V c).after 5 t) = _
  rw [after0_5]
  have hN : cfg0.N = 20 := N_0
  have ht : t.val < 20 := hN ▸ t.isLt
  obtain ⟨e00, e01, e10, e11, e20, e21, e30, e31, e40, e41, e50, e51⟩ := block_index0 t
  funext j
  obtain ⟨p, q, rfl⟩ : ∃ (p : Fin 5000) (q : Fin 64), j = ix2 p q := ⟨j 0, j 1, eq_ix2 j⟩
  show out0_5 (iblk0 V c 0 t) (iblk0 V c 1 t) (iblk0 V c 2 t) (iblk0 V c 3 t) (iblk0 V c 4 t) (ix2 p q)
      = hidden (V c main_v13) (V c main_arg0) (V c main_arg2) (V c main_arg4) (V c main_v14) (((cfg0.win 5).blk t).view.emb (ix2 p q))
  refine (out0_apply _ _ _ _ _ p q).trans ?_
  have hp : p.val < 5000 := p.isLt
  have hq : q.val < 64 := q.isLt
  refine Eq.trans ?_ (hidden_at _ _ _ _ _ _ ⟨t.val * 5000 + p.val, by omega⟩ q
    (by show win0_5.index t (0 : Fin 2) * 5000 + 1 * p.val = t.val * 5000 + p.val; omega)
    (by show win0_5.index t (1 : Fin 2) * 64 + 1 * q.val = q.val; omega)).symm
  have a0 : ∀ k : Fin 48, (iblk0 V c 0 t : Vec Ideal S5000x48 .f32) (ix2 p k) = (V c main_v13 : Mat 100000 48) (ix2 ⟨t.val * 5000 + p.val, by omega⟩ k) := fun k => by
    have hk : k.val < 48 := k.isLt
    show (V c main_v13 : Mat 100000 48) (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 48 + 1 * k.val = k.val; omega
  have a1 : ∀ k : Fin 48, (iblk0 V c 1 t : Vec Ideal S5000x48 .f32) (ix2 p k) = (V c main_arg0 : Mat 100000 48) (ix2 ⟨t.val * 5000 + p.val, by omega⟩ k) := fun k => by
    have hk : k.val < 48 := k.isLt
    show (V c main_arg0 : Mat 100000 48) (((cfg0.win 1).blk t).view.emb (ix2 p k)) = _
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 48 + 1 * k.val = k.val; omega
  have a2 : ∀ k : Fin 48, (iblk0 V c 2 t : Vec Ideal S48x64 .f32) (ix2 k q) = (V c main_arg2 : Mat 48 64) (ix2 k q) := fun k => by
    have hk : k.val < 48 := k.isLt
    show (V c main_arg2 : Mat 48 64) (((cfg0.win 2).blk t).view.emb (ix2 k q)) = _
    refine congrArg _ (funext fun a => Fin.ext ?_)
    match a with
    | ⟨0, _⟩ => show win0_2.index t (0 : Fin 2) * 48 + 1 * k.val = k.val; omega
    | ⟨1, _⟩ => show win0_2.index t (1 : Fin 2) * 64 + 1 * q.val = q.val; omega
  have a4 : ∀ k : Fin 48, (iblk0 V c 4 t : Vec Ideal S48x64 .f32) (ix2 k q) = (V c main_arg4 : Mat 48 64) (ix2 k q) := fun k => by
    have hk : k.val < 48 := k.isLt
    show (V c main_arg4 : Mat 48 64) (((cfg0.win 4).blk t).view.emb (ix2 k q)) = _
    refine congrArg _ (funext fun a => Fin.ext ?_)
    match a with
    | ⟨0, _⟩ => show win0_4.index t (0 : Fin 2) * 48 + 1 * k.val = k.val; omega
    | ⟨1, _⟩ => show win0_4.index t (1 : Fin 2) * 64 + 1 * q.val = q.val; omega
  have a3 : (iblk0 V c 3 t : Vec Ideal S1x64 .f32) (ix2 0 q) = (V c main_v14 : Mat 1 64) (ix2 0 q) := by
    show (V c main_v14 : Mat 1 64) (((cfg0.win 3).blk t).view.emb (ix2 0 q)) = _
    refine congrArg _ (funext fun a => Fin.ext ?_)
    match a with
    | ⟨0, _⟩ => show win0_3.index t (0 : Fin 2) * 1 + 1 * 0 = 0; omega
    | ⟨1, _⟩ => show win0_3.index t (1 : Fin 2) * 64 + 1 * q.val = q.val; omega
  simp only [a0, a1, a2, a4, a3]

/-- An index of the result array is in point `t`'s block iff each coordinate is in the block's range on its axis. -/
theorem mem_block0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v15).slice (win0_5.rect t)).set ↔ _
  rw [View.set_slice_whole, Rect.mem_set_unit]
  exact Iff.rfl

/-- Every row is in some written block: row `r` in block `r / 5000`. -/
theorem cover0 (i : S100000x64.Idx) :
    ∃ t : Fin cfg0.N, (cfg0.win 5).flush t = true ∧ i ∈ ((cfg0.win 5).blk t).view.set := by
  have hN : cfg0.N = 20 := N_0
  have h0 : (i 0).val < 100000 := (i 0).isLt
  have h1 : (i 1).val < 64 := (i 1).isLt
  have hlt : (i 0).val / 5000 < cfg0.N := by rw [hN]; omega
  obtain ⟨-, -, -, -, -, -, -, -, -, -, e50, e51⟩ := block_index0 ⟨(i 0).val / 5000, hlt⟩
  refine ⟨⟨(i 0).val / 5000, hlt⟩, flush0_5 _, ?_⟩
  rw [mem_block0]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, hlt⟩ (1 : Fin 2) * 64 ≤ (i 1).val ∧ (i 1).val < win0_5.index ⟨(i 0).val / 5000, hlt⟩ (1 : Fin 2) * 64 + 64
    rw [e51]
    omega

/-- After the pipeline the result array holds the layer's function of the arrays it found. -/
theorem result0_eq (c : Dev nD) :
    (dat0 V c).arrAt 5 cfg0.N = hidden (V c main_v13) (V c main_arg0) (V c main_arg2) (V c main_arg4) (V c main_v14) :=
  (dat0 V c).arrAt_eq_of_cover 5 _ (fun t _ => flushed0_eq V c t) cover0

end Cert.KernelIdeal.Hand

end
-- ==== Proof.Region1.lean ====
/-
  Pipeline 1 (64 -> 32 features), from blocks to the whole array.

  Grid point `t` of 20 stages rows 5000 t .. 5000 t + 4999 of the neighbour sums and of the layer's input, the two weight
  matrices and the bias row whole, and writes back rows 5000 t .. 5000 t + 4999 of the result. Each written block is
  the block of ONE function of the arrays as the pipeline finds them (`Cert.GraphConv.output`), and the 20 blocks cover all
  100000 rows, so the result array ends holding that function.
-/
import proofs.«165552_j60043642798829_1_alg».proof.Proof.Gen.KernelIdeal.Frame
import proofs.«165552_j60043642798829_1_alg».proof.Proof.Payload
import proofs.«165552_j60043642798829_1_alg».proof.Proof.Combine
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.GraphConv

variable (V : (c : Dev nD) → (b : Ref sig .tc) → Buf (Elt Ideal) ((c : Thread nD τ).loc b))

theorem zero_offsets1 : (![0, 0] : Fin 2 → Nat) = fun _ => 0 := funext fun a => by fin_cases a <;> rfl

/-- What the body leaves in the output's staging buffer, at row `p` of the block and feature `q`. -/
theorem out1_apply (x0 x1 : Vec Ideal S5000x64 .f32) (x2 : Vec Ideal S64x32 .f32) (x3 : Vec Ideal S1x32 .f32) (x4 : Vec Ideal S64x32 .f32)
    (p : Fin 5000) (q : Fin 32) :
    out1_5 x0 x1 x2 x3 x4 (ix2 p q) = (∑ k : Fin 64, x0 (ix2 p k) * x2 (ix2 k q) + ∑ k : Fin 64, x1 (ix2 p k) * x4 (ix2 k q)) + x3 (ix2 0 q) := by
  unfold out1_5
  rw [View.canon_unit_zero zero_offsets1]
  simp only [View.ld_unit_zero (S := S5000x64) zero_offsets1, View.ld_unit_zero (S := S64x32) zero_offsets1, View.ld_unit_zero (S := S1x32) zero_offsets1]
  exact pay1_apply x0 x1 x2 x4 x3 p q

/-- The printed index maps over the 20 grid points: the two row-tiled inputs and the output sit at block row `t`,
    the weights and the bias at their one block. -/
theorem block_index1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer's function of the arrays as the pipeline finds them. -/
theorem flushed1_eq (c : Dev nD) (t : Fin cfg1.N) :
    (dat1 V c).flushed 5 t = ((cfg1.win 5).blk t).view.read (Elt Ideal)
      (output (V c main_v25) (V c main_v15) (V c main_arg5) (V c main_arg7) (V c main_v26)) := by
  show (cfg1.win 5).cut (grid1.coords t) ((dat1 V c).after 5 t) = _
  rw [after1_5]
  have hN : cfg1.N = 20 := N_1
  have ht : t.val < 20 := hN ▸ t.isLt
  obtain ⟨e00, e01, e10, e11, e20, e21, e30, e31, e40, e41, e50, e51⟩ := block_index1 t
  funext j
  obtain ⟨p, q, rfl⟩ : ∃ (p : Fin 5000) (q : Fin 32), j = ix2 p q := ⟨j 0, j 1, eq_ix2 j⟩
  show out1_5 (iblk1 V c 0 t) (iblk1 V c 1 t) (iblk1 V c 2 t) (iblk1 V c 3 t) (iblk1 V c 4 t) (ix2 p q)
      = output (V c main_v25) (V c main_v15) (V c main_arg5) (V c main_arg7) (V c main_v26) (((cfg1.win 5).blk t).view.emb (ix2 p q))
  refine (out1_apply _ _ _ _ _ p q).trans ?_
  have hp : p.val < 5000 := p.isLt
  have hq : q.val < 32 := q.isLt
  refine Eq.trans ?_ (output_at _ _ _ _ _ _ ⟨t.val * 5000 + p.val, by omega⟩ q
    (by show win1_5.index t (0 : Fin 2) * 5000 + 1 * p.val = t.val * 5000 + p.val; omega)
    (by show win1_5.index t (1 : Fin 2) * 32 + 1 * q.val = q.val; omega)).symm
  have a0 : ∀ k : Fin 64, (iblk1 V c 0 t : Vec Ideal S5000x64 .f32) (ix2 p k) = (V c main_v25 : Mat 100000 64) (ix2 ⟨t.val * 5000 + p.val, by omega⟩ k) := fun k => by
    have hk : k.val < 64 := k.isLt
    show (V c main_v25 : Mat 100000 64) (((cfg1.win 0).blk t).view.emb (ix2 p k)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  have a1 : ∀ k : Fin 64, (iblk1 V c 1 t : Vec Ideal S5000x64 .f32) (ix2 p k) = (V c main_v15 : Mat 100000 64) (ix2 ⟨t.val * 5000 + p.val, by omega⟩ k) := fun k => by
    have hk : k.val < 64 := k.isLt
    show (V c main_v15 : Mat 100000 64) (((cfg1.win 1).blk t).view.emb (ix2 p k)) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * k.val = k.val; omega
  have a2 : ∀ k : Fin 64, (iblk1 V c 2 t : Vec Ideal S64x32 .f32) (ix2 k q) = (V c main_arg5 : Mat 64 32) (ix2 k q) := fun k => by
    have hk : k.val < 64 := k.isLt
    show (V c main_arg5 : Mat 64 32) (((cfg1.win 2).blk t).view.emb (ix2 k q)) = _
    refine congrArg _ (funext fun a => Fin.ext ?_)
    match a with
    | ⟨0, _⟩ => show win1_2.index t (0 : Fin 2) * 64 + 1 * k.val = k.val; omega
    | ⟨1, _⟩ => show win1_2.index t (1 : Fin 2) * 32 + 1 * q.val = q.val; omega
  have a4 : ∀ k : Fin 64, (iblk1 V c 4 t : Vec Ideal S64x32 .f32) (ix2 k q) = (V c main_arg7 : Mat 64 32) (ix2 k q) := fun k => by
    have hk : k.val < 64 := k.isLt
    show (V c main_arg7 : Mat 64 32) (((cfg1.win 4).blk t).view.emb (ix2 k q)) = _
    refine congrArg _ (funext fun a => Fin.ext ?_)
    match a with
    | ⟨0, _⟩ => show win1_4.index t (0 : Fin 2) * 64 + 1 * k.val = k.val; omega
    | ⟨1, _⟩ => show win1_4.index t (1 : Fin 2) * 32 + 1 * q.val = q.val; omega
  have a3 : (iblk1 V c 3 t : Vec Ideal S1x32 .f32) (ix2 0 q) = (V c main_v26 : Mat 1 32) (ix2 0 q) := by
    show (V c main_v26 : Mat 1 32) (((cfg1.win 3).blk t).view.emb (ix2 0 q)) = _
    refine congrArg _ (funext fun a => Fin.ext ?_)
    match a with
    | ⟨0, _⟩ => show win1_3.index t (0 : Fin 2) * 1 + 1 * 0 = 0; omega
    | ⟨1, _⟩ => show win1_3.index t (1 : Fin 2) * 32 + 1 * q.val = q.val; omega
  simp only [a0, a1, a2, a4, a3]

/-- An index of the result array is in point `t`'s block iff each coordinate is in the block's range on its axis. -/
theorem mem_block1 (t : Fin cfg1.N) (i : S100000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v27).slice (win1_5.rect t)).set ↔ _
  rw [View.set_slice_whole, Rect.mem_set_unit]
  exact Iff.rfl

/-- Every row is in some written block: row `r` in block `r / 5000`. -/
theorem cover1 (i : S100000x32.Idx) :
    ∃ t : Fin cfg1.N, (cfg1.win 5).flush t = true ∧ i ∈ ((cfg1.win 5).blk t).view.set := by
  have hN : cfg1.N = 20 := N_1
  have h0 : (i 0).val < 100000 := (i 0).isLt
  have h1 : (i 1).val < 32 := (i 1).isLt
  have hlt : (i 0).val / 5000 < cfg1.N := by rw [hN]; omega
  obtain ⟨-, -, -, -, -, -, -, -, -, -, e50, e51⟩ := block_index1 ⟨(i 0).val / 5000, hlt⟩
  refine ⟨⟨(i 0).val / 5000, hlt⟩, flush1_5 _, ?_⟩
  rw [mem_block1]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, hlt⟩ (1 : Fin 2) * 32 ≤ (i 1).val ∧ (i 1).val < win1_5.index ⟨(i 0).val / 5000, hlt⟩ (1 : Fin 2) * 32 + 32
    rw [e51]
    omega

/-- After the pipeline the result array holds the layer's function of the arrays it found. -/
theorem result1_eq (c : Dev nD) :
    (dat1 V c).arrAt 5 cfg1.N = output (V c main_v25) (V c main_v15) (V c main_arg5) (V c main_arg7) (V c main_v26) :=
  (dat1 V c).arrAt_eq_of_cover 5 _ (fun t _ => flushed1_eq V c t) cover1

end Cert.KernelIdeal.Hand

end
-- ==== Proof.RefSide.lean ====
/-
  The plain program, layer by layer, is the two combine functions of `Cert.GraphConv`.

  Entry (r, j) of its first layer is  max ((sum_k agg[r,k] wrel[k,j] + b[j]) + sum_k x[r,k] wroot[k,j], 0)  and of its
  second  (sum_k agg'[r,k] wrel'[k,j] + b'[j]) + sum_k h[r,k] wroot'[k,j] : the bias is added before the second
  product, where the tiled kernels add it last. Addition of extended reals is commutative and associative, so
  (a + b) + c = (a + c) + b holds without any finiteness, and the two groupings agree entry by entry.
  The neighbour sums (gather the edges' source rows, add them into the destination rows) are carried as one function
  of the array they are taken of; they are never opened.
-/
import proofs.«165552_j60043642798829_1_alg».proof.Proof.Gen.ReferenceIdeal.Read
import proofs.«165552_j60043642798829_1_alg».proof.Proof.Combine
import Idealize.ShloMosaic.Lib.ValueIdx
import Idealize.ShloMosaic.PureOps.Ideal.Laws

noncomputable section

namespace Cert.ReferenceIdeal.Hand

open Cert.ReferenceIdeal Cert.ReferenceIdeal.Gen Cert.ReferenceIdeal.Read
open Idealize.ShloMosaic Idealize.ShloMosaic.ValueIdx
open Cert.GraphConv

/-- The neighbour sums of an array of 64 hidden features per node along the edge list: the source rows of the edges
    gathered, then added into the destination rows of a zero array. -/
def neighbourSum64 (h : FVec Ideal S100000x64 .f32) (ei : IVec S2x1600000 32) : FVec Ideal S100000x64 .f32 :=
  Host.scatterAdd (F := Ideal) scatter_S100000x64_S1600000x1_S1600000x64_1_0_0_1 (val_main_v28 (F := Ideal)) (val_main_v29 (F := Ideal) ei)
    (Host.gather gather_S100000x64_S1600000x1_S1600000x64_1_0_n_n_0_1_164 h (val_main_v26 (F := Ideal) ei))

variable (x0 : (⟨S100000x48, .f32⟩ : BufTy).Contents (Elt Ideal)) (x1 : (⟨S2x1600000, .i32⟩ : BufTy).Contents (Elt Ideal))
  (x2 : (⟨S48x64, .f32⟩ : BufTy).Contents (Elt Ideal)) (x3 : (⟨S64, .f32⟩ : BufTy).Contents (Elt Ideal))
  (x4 : (⟨S48x64, .f32⟩ : BufTy).Contents (Elt Ideal)) (x5 : (⟨S64x32, .f32⟩ : BufTy).Contents (Elt Ideal))
  (x6 : (⟨S32, .f32⟩ : BufTy).Contents (Elt Ideal)) (x7 : (⟨S64x32, .f32⟩ : BufTy).Contents (Elt Ideal))

/-- The second layer's neighbour sums are taken of the first layer's result. -/
theorem second_sums_eq : val_main_v30 (F := Ideal) x0 x1 x2 x3 x4 = neighbourSum64 (val_main_v20 (F := Ideal) x0 x1 x2 x3 x4) x1 := rfl

/-- The first layer is the hidden-feature function of the first neighbour sums. -/
theorem first_layer_eq :
    val_main_v20 (F := Ideal) x0 x1 x2 x3 x4 = hidden (val_main_v13 (F := Ideal) x0 x1) x0 x2 x4 (biasRow64 x3) := by
  funext i
  have el : ∀ k : Fin 48, lidx_main_v14 i k = ix2 (i 0) k := fun k => funext fun a => Fin.ext (by match a with | ⟨0, _⟩ => rfl | ⟨1, _⟩ => rfl)
  have er : ∀ k : Fin 48, ridx_main_v14 i k = ix2 k (i 1) := fun k => funext fun a => Fin.ext (by match a with | ⟨0, _⟩ => rfl | ⟨1, _⟩ => rfl)
  have el' : ∀ k : Fin 48, lidx_main_v18 i k = ix2 (i 0) k := fun k => funext fun a => Fin.ext (by match a with | ⟨0, _⟩ => rfl | ⟨1, _⟩ => rfl)
  have er' : ∀ k : Fin 48, ridx_main_v18 i k = ix2 k (i 1) := fun k => funext fun a => Fin.ext (by match a with | ⟨0, _⟩ => rfl | ⟨1, _⟩ => rfl)
  have eb : idx_main_v15 (idx_main_v16 i) = ix1 (i 1) := funext fun a => Fin.ext (by match a with | ⟨0, _⟩ => rfl)
  rw [val_main_v20_apply, val_main_v19_apply, val_main_v17_apply, val_main_v14_apply, val_main_v16_apply, val_main_v15_apply,
    val_main_v18_apply, val_main_call0_v0_apply, val_main_call0_cst_apply]
  simp only [el, er, el', er', eb]
  show max ((_ + _) + _) (Ideal.ofBits .f32 0x00000000#32) = max ((_ + _) + _) 0
  rw [Ideal.ofBits_zero_f32, add_right_comm]
  rfl

/-- The second layer is the output function of the second neighbour sums and the first layer's result. -/
theorem second_layer_eq :
    val_main_v36 (F := Ideal) x0 x1 x2 x3 x4 x5 x6 x7
      = output (neighbourSum64 (val_main_v20 (F := Ideal) x0 x1 x2 x3 x4) x1) (val_main_v20 (F := Ideal) x0 x1 x2 x3 x4) x5 x7 (biasRow32 x6) := by
  funext i
  have el : ∀ k : Fin 64, lidx_main_v31 i k = ix2 (i 0) k := fun k => funext fun a => Fin.ext (by match a with | ⟨0, _⟩ => rfl | ⟨1, _⟩ => rfl)
  have er : ∀ k : Fin 64, ridx_main_v31 i k = ix2 k (i 1) := fun k => funext fun a => Fin.ext (by match a with | ⟨0, _⟩ => rfl | ⟨1, _⟩ => rfl)
  have el' : ∀ k : Fin 64, lidx_main_v35 i k = ix2 (i 0) k := fun k => funext fun a => Fin.ext (by match a with | ⟨0, _⟩ => rfl | ⟨1, _⟩ => rfl)
  have er' : ∀ k : Fin 64, ridx_main_v35 i k = ix2 k (i 1) := fun k => funext fun a => Fin.ext (by match a with | ⟨0, _⟩ => rfl | ⟨1, _⟩ => rfl)
  have eb : idx_main_v32 (idx_main_v33 i) = ix1 (i 1) := funext fun a => Fin.ext (by match a with | ⟨0, _⟩ => rfl)
  rw [val_main_v36_apply, val_main_v34_apply, val_main_v31_apply, val_main_v33_apply, val_main_v32_apply, val_main_v35_apply]
  simp only [el, er, el', er', eb]
  rw [second_sums_eq]
  show (_ + _) + _ = (_ + _) + _
  rw [add_right_comm]
  rfl

/-- The plain program's result as the two combine functions composed. -/
theorem reference_eq :
    val_main_v36 (F := Ideal) x0 x1 x2 x3 x4 x5 x6 x7
      = output (neighbourSum64 (hidden (val_main_v13 (F := Ideal) x0 x1) x0 x2 x4 (biasRow64 x3)) x1)
          (hidden (val_main_v13 (F := Ideal) x0 x1) x0 x2 x4 (biasRow64 x3)) x5 x7 (biasRow32 x6) := by
  rw [second_layer_eq, first_layer_eq]

end Cert.ReferenceIdeal.Hand

end
-- ==== Proof.KernelValue.lean ====
/-
  The tiled program's result array as a function of the launch memory.

  Folding the four stretches over the launch memory:
    * the first host stretch leaves the first neighbour sums, the reshaped bias row and the edge list's two rows;
    * the first pipeline leaves the hidden features (`Cert.GraphConv.hidden` of what it found);
    * the second host stretch gathers and sums those hidden features along the same edge rows and reshapes the second bias;
    * the second pipeline leaves the output features (`Cert.GraphConv.output` of what it found).
  The neighbour sums are the plain program's own stages applied to the same arrays, so they are named by those stages
  and never opened.
-/
import proofs.«165552_j60043642798829_1_alg».proof.Proof.Gen.KernelIdeal.Frame
import proofs.«165552_j60043642798829_1_alg».proof.Proof.Region0
import proofs.«165552_j60043642798829_1_alg».proof.Proof.Region1
import proofs.«165552_j60043642798829_1_alg».proof.Proof.RefSide
import Idealize.ShloMosaic.Lib.StableHlo.Run
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx
open Cert.GraphConv
open Cert.ReferenceIdeal.Read (val_main_v1 val_main_v3 val_main_v13)
open Cert.ReferenceIdeal.Hand (neighbourSum64)

variable (m : (ℓ : Loc nD τ sig) → Buf (Elt Ideal) ℓ) (ρ : Dev nD → PrngReg)

/-- The hidden features as a function of the launch memory. -/
def hiddenOf (c : Dev nD) : Mat 100000 64 :=
  hidden (val_main_v13 (F := Ideal) (m ((c.tc : Thread nD τ).loc main_arg0)) (m ((c.tc : Thread nD τ).loc main_arg1)))
    (m ((c.tc : Thread nD τ).loc main_arg0)) (m ((c.tc : Thread nD τ).loc main_arg2)) (m ((c.tc : Thread nD τ).loc main_arg4))
    (biasRow64 (m ((c.tc : Thread nD τ).loc main_arg3)))

/-- The output features as a function of the launch memory. -/
def resultOf (c : Dev nD) : Mat 100000 32 :=
  output (neighbourSum64 (hiddenOf m c) (m ((c.tc : Thread nD τ).loc main_arg1))) (hiddenOf m c)
    (m ((c.tc : Thread nD τ).loc main_arg5)) (m ((c.tc : Thread nD τ).loc main_arg7))
    (biasRow32 (m ((c.tc : Thread nD τ).loc main_arg6)))

/-! ## What the first pipeline finds -/

theorem entry0_sums (c : Dev nD) :
    V1 m ρ c main_v13 = val_main_v13 (F := Ideal) (m ((c.tc : Thread nD τ).loc main_arg0)) (m ((c.tc : Thread nD τ).loc main_arg1)) := by
  show StableHlo.after hostOps0 (W0 m ρ c) (Proc.devRef .tc main_v13) = _
  after_results
  rfl

theorem entry0_x (c : Dev nD) : V1 m ρ c main_arg0 = m ((c.tc : Thread nD τ).loc main_arg0) := by
  show StableHlo.after hostOps0 (W0 m ρ c) (Proc.devRef .tc main_arg0) = _
  after_results

theorem entry0_wrel (c : Dev nD) : V1 m ρ c main_arg2 = m ((c.tc : Thread nD τ).loc main_arg2) := by
  show StableHlo.after hostOps0 (W0 m ρ c) (Proc.devRef .tc main_arg2) = _
  after_results

theorem entry0_wroot (c : Dev nD) : V1 m ρ c main_arg4 = m ((c.tc : Thread nD τ).loc main_arg4) := by
  show StableHlo.after hostOps0 (W0 m ρ c) (Proc.devRef .tc main_arg4) = _
  after_results

/-- The 64 biases reshaped to one row. -/
theorem reshape_bias64 (b : S64.Idx → Ideal .f32) : shapeCast S1x64 b shapeCasts_S64_S1x64 = biasRow64 b := by
  funext i
  refine shapeCast_apply b shapeCasts_S64_S1x64 i (ix1 (i 1)) ?_
  rewrite [Shape.rowMajor_val_two, Shape.rowMajor_val_one]
  have h0 : (i 0).val < 1 := (i 0).isLt
  show (i 1).val = (i 0).val * 64 + (i 1).val
  omega

/-- The 32 biases reshaped to one row. -/
theorem reshape_bias32 (b : S32.Idx → Ideal .f32) : shapeCast S1x32 b shapeCasts_S32_S1x32 = biasRow32 b := by
  funext i
  refine shapeCast_apply b shapeCasts_S32_S1x32 i (ix1 (i 1)) ?_
  rewrite [Shape.rowMajor_val_two, Shape.rowMajor_val_one]
  have h0 : (i 0).val < 1 := (i 0).isLt
  show (i 1).val = (i 0).val * 32 + (i 1).val
  omega

theorem entry0_bias (c : Dev nD) : V1 m ρ c main_v14 = biasRow64 (m ((c.tc : Thread nD τ).loc main_arg3)) := by
  show StableHlo.after hostOps0 (W0 m ρ c) (Proc.devRef .tc main_v14) = _
  after_results
  exact reshape_bias64 _

/-! ## What the first pipeline leaves, and what the second host stretch reads -/

theorem mid_hidden (c : Dev nD) : V2 m ρ c main_v15 = hiddenOf m c := by
  refine (W2_arr m ρ c 5).trans ((result0_eq (V1 m ρ) c).trans ?_)
  rw [entry0_sums, entry0_x, entry0_wrel, entry0_wroot, entry0_bias]
  rfl

/-- The edges' source row, as the first host stretch left it. -/
theorem mid_src (c : Dev nD) : W2 m ρ c (Proc.devRef .tc main_v1) = val_main_v1 (F := Ideal) (m ((c.tc : Thread nD τ).loc main_arg1)) := by
  refine (W2_of_ne m ρ c main_v1 (by decide)).trans ?_
  show StableHlo.after hostOps0 (W0 m ρ c) (Proc.devRef .tc main_v1) = _
  after_results
  rfl

/-- The edges' destination row, as the first host stretch left it. -/
theorem mid_dst (c : Dev nD) : W2 m ρ c (Proc.devRef .tc main_v3) = val_main_v3 (F := Ideal) (m ((c.tc : Thread nD τ).loc main_arg1)) := by
  refine (W2_of_ne m ρ c main_v3 (by decide)).trans ?_
  show StableHlo.after hostOps0 (W0 m ρ c) (Proc.devRef .tc main_v3) = _
  after_results
  rfl

theorem mid_wrel (c : Dev nD) : W2 m ρ c (Proc.devRef .tc main_arg5) = m ((c.tc : Thread nD τ).loc main_arg5) := by
  refine (W2_of_ne m ρ c main_arg5 (by decide)).trans ?_
  show StableHlo.after hostOps0 (W0 m ρ c) (Proc.devRef .tc main_arg5) = _
  after_results

theorem mid_wroot (c : Dev nD) : W2 m ρ c (Proc.devRef .tc main_arg7) = m ((c.tc : Thread nD τ).loc main_arg7) := by
  refine (W2_of_ne m ρ c main_arg7 (by decide)).trans ?_
  show StableHlo.after hostOps0 (W0 m ρ c) (Proc.devRef .tc main_arg7) = _
  after_results

theorem mid_bias (c : Dev nD) : W2 m ρ c (Proc.devRef .tc main_arg6) = m ((c.tc : Thread nD τ).loc main_arg6) := by
  refine (W2_of_ne m ρ c main_arg6 (by decide)).trans ?_
  show StableHlo.after hostOps0 (W0 m ρ c) (Proc.devRef .tc main_arg6) = _
  after_results

/-! ## What the second pipeline finds -/

theorem entry1_sums (c : Dev nD) :
    V3 m ρ c main_v25 = neighbourSum64 (hiddenOf m c) (m ((c.tc : Thread nD τ).loc main_arg1)) := by
  show StableHlo.after hostOps1 (W2 m ρ c) (Proc.devRef .tc main_v25) = _
  after_results
  rw [mid_src, mid_dst, show W2 m ρ c (Proc.devRef .tc main_v15) = hiddenOf m c from mid_hidden m ρ c]
  rfl

theorem entry1_h (c : Dev nD) : V3 m ρ c main_v15 = hiddenOf m c := by
  show StableHlo.after hostOps1 (W2 m ρ c) (Proc.devRef .tc main_v15) = _
  after_results
  exact mid_hidden m ρ c

theorem entry1_wrel (c : Dev nD) : V3 m ρ c main_arg5 = m ((c.tc : Thread nD τ).loc main_arg5) := by
  show StableHlo.after hostOps1 (W2 m ρ c) (Proc.devRef .tc main_arg5) = _
  after_results
  exact mid_wrel m ρ c

theorem entry1_wroot (c : Dev nD) : V3 m ρ c main_arg7 = m ((c.tc : Thread nD τ).loc main_arg7) := by
  show StableHlo.after hostOps1 (W2 m ρ c) (Proc.devRef .tc main_arg7) = _
  after_results
  exact mid_wroot m ρ c

theorem entry1_bias (c : Dev nD) : V3 m ρ c main_v26 = biasRow32 (m ((c.tc : Thread nD τ).loc main_arg6)) := by
  show StableHlo.after hostOps1 (W2 m ρ c) (Proc.devRef .tc main_v26) = _
  after_results
  rw [mid_bias]
  exact reshape_bias32 _

/-! ## The result -/

/-- The fold's contents at the result buffer are the output features of the launch memory. -/
theorem fold_result (c : Dev nD) : W4 m ρ c (Proc.devRef .tc main_v27) = resultOf m c := by
  refine (W4_arr m ρ c 5).trans ((result1_eq (V3 m ρ) c).trans ?_)
  rw [entry1_sums, entry1_h, entry1_wrel, entry1_wroot, entry1_bias]
  rfl

end Cert.KernelIdeal.Hand

end
-- ==== Proof.lean ====
/-
  A two-layer graph convolution with a relu between the layers, computed two ways, gives equal results on the
  extended reals.

  Both programs form, for each layer, the neighbour sums `agg` of the layer's input along the edge list (gather the
  source rows, add them into the destination rows) and then, for node r and output feature j, the combine
      sum_k agg[r,k] wrel[k,j]  +  sum_k x[r,k] wroot[k,j]  +  b[j].
  The tiled program computes the combine 5000 nodes at a time, adds the two products first and the bias last, and
  narrows the operands of the products to bf16, which is the identity on exact values. The plain program multiplies whole
  arrays and adds the bias between the two products. The two groupings of the three-term sum agree because addition of
  extended reals is commutative and associative; no finiteness of the inputs is used. The 20 row blocks of each tiled
  combine cover all 100000 nodes, so each tiled layer ends holding the whole-array function `Cert.GraphConv.hidden` /
  `Cert.GraphConv.output`; the neighbour sums are the same operations applied to equal arrays in both programs and are
  carried as one function, never opened.

  The word-level program and its idealization share their text (no rewrite was applied), so the idealization claim is
  trivial; the three frames are the generated runs.
-/
import proofs.«165552_j60043642798829_1_alg».proof.Defs
import proofs.«165552_j60043642798829_1_alg».proof.Proof.Gen.Kernel
import proofs.«165552_j60043642798829_1_alg».proof.Proof.Gen.Kernel.Skeleton
import proofs.«165552_j60043642798829_1_alg».proof.Proof.Gen.Kernel.Launch
import proofs.«165552_j60043642798829_1_alg».proof.Proof.Gen.Kernel.Points
import proofs.«165552_j60043642798829_1_alg».proof.Proof.Gen.Kernel.Frame
import proofs.«165552_j60043642798829_1_alg».proof.Proof.Gen.KernelIdeal
import proofs.«165552_j60043642798829_1_alg».proof.Proof.Gen.KernelIdeal.Skeleton
import proofs.«165552_j60043642798829_1_alg».proof.Proof.Gen.KernelIdeal.Launch
import proofs.«165552_j60043642798829_1_alg».proof.Proof.Gen.KernelIdeal.Points
import proofs.«165552_j60043642798829_1_alg».proof.Proof.Gen.KernelIdeal.Frame
import proofs.«165552_j60043642798829_1_alg».proof.Proof.Gen.ReferenceIdeal
import proofs.«165552_j60043642798829_1_alg».proof.Proof.Gen.ReferenceIdeal.Run
import proofs.«165552_j60043642798829_1_alg».proof.Proof.Gen.ReferenceIdeal.Read
import proofs.«165552_j60043642798829_1_alg».proof.Proof.Gen.Pre_finite_inputs
import proofs.«165552_j60043642798829_1_alg».proof.Proof.KernelRun
import proofs.«165552_j60043642798829_1_alg».proof.Proof.KernelValue
import proofs.«165552_j60043642798829_1_alg».proof.Proof.RefSide
import Idealize.ShloMosaic.Adequacy
import Idealize.ShloMosaic.Init

noncomputable section

namespace Cert.Proof

open Idealize.ShloMosaic Idealize.SL.Sem

/-- The word-level tiled program runs and leaves its arguments as launched. -/
theorem frame_kernel : Cert.frame_Kernel := fun m ρ _ => Cert.Kernel.Gen.frame m ρ

/-- The idealized tiled program runs and leaves its arguments as launched. -/
theorem frame_kernelIdeal : Cert.frame_KernelIdeal := fun m ρ _ => Cert.KernelIdeal.Gen.frame m ρ

/-- The plain program runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the idealized program. -/
theorem preserves : Cert.preserves_Kernel_KernelIdeal := trivial

/-- From memories that agree on the arguments both programs end with the output features of the launch memory:
    the tiled program by the fold of its four stretches, the plain program by its run read layer by layer. -/
theorem algebraic : Cert.algebraic_KernelIdeal_ReferenceIdeal := by
  intro m ρ m' ρ' _ hagree
  refine ⟨fun c => Cert.KernelIdeal.Hand.resultOf m c, ?_, ?_⟩
  · exact (θ_run Cert.KernelIdeal.defs _ _).mono
      (fun _ h c => ⟨(h c).1.trans (Cert.KernelIdeal.Hand.fold_result m ρ c), (h c).2⟩)
      (Cert.KernelIdeal.Hand.run_fold (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v36_eq, Cert.ReferenceIdeal.Hand.reference_eq, h0, h1, h2, h3, h4, h5, h6, h7]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
